-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000x128 : Shape := ⟨2, ![500000, 128]⟩
abbrev S384x64 : Shape := ⟨2, ![384, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S64x128 .f32) (main_arg6 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x500000 32) (main_arg2 : FVec F S500000x128 .f32) (main_arg3 : FVec F S384x64 .f32) (main_arg4 : FVec F S64 .f32) (main_arg5 : FVec F S64x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg2
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S384x64 .f32 := Host.absf main_arg3
  let main_cst_2 : FVec F S_ .f32 := constant S_ .f32 0x7F800000#32
  let main_v10 : FVec F S384x64 .f32 := broadcastInDim S384x64 ![] bcast_S_S384x64 main_cst_2
  let main_v11 : IVec S384x64 1 := cmpf .olt main_v9 main_v10
  let main_c_3 : IVec S_ 1 := constantI S_ 1 1#1
  let main_v12 : IVec S_ 1 := (fun x v => Host.reduce IntOp.andi x v reducesTo_S384x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x128 : Shape := ⟨2, ![50000, 128]⟩
abbrev S2x500000 : Shape := ⟨2, ![2, 500000]⟩
abbrev S500000x128 : Shape := ⟨2, ![500000, 128]⟩
abbrev S384x64 : Shape := ⟨2, ![384, 64]⟩
abbrev S64 : Shape := ⟨1, ![64]⟩
abbrev S64x128 : Shape := ⟨2, ![64, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S128x64 : Shape := ⟨2, ![128, 64]⟩
abbrev S5000x128 : Shape := ⟨2, ![5000, 128]⟩
abbrev S5000x64 : Shape := ⟨2, ![5000, 64]⟩
abbrev S1x64 : Shape := ⟨2, ![1, 64]⟩
abbrev S1x128 : Shape := ⟨2, ![1, 128]⟩

abbrev nBuf : Space → Nat
  | .hbm => 33
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000x128, .f32⟩
  | .hbm, ⟨3, _⟩ => ⟨S384x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x128, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S128x64, .f32⟩
  | .hbm, ⟨30, _⟩ => ⟨S128x64, .f32⟩
  | .hbm, ⟨31, _⟩ => ⟨S128x64, .f32⟩
  | .hbm, ⟨32, _⟩ => ⟨S500000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S64, .f32⟩
  | .local _ .vmem, ⟨10, _⟩ => ⟨S64x128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S384x64_S128x64_0_0 : S384x64.Slices ![0, 0] S128x64
  slices_S384x64_S128x64_128_0 : S384x64.Slices ![128, 0] S128x64
  slices_S384x64_S128x64_256_0 : S384x64.Slices ![256, 0] S128x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x128_S500000x1_S500000x128_1_0_n_n_0_1_1128_wf : GatherDims.WF S50000x128 S500000x1 S500000x128 [1] [0] [] [0] [] 1 ![1, 128]
  dot_S5000x128_S128x64_S5000x64_1_0_0_1_n_n_wf : DotDims.WF S5000x128 S128x64 S5000x64 [1] [0] [0] [1] [] []
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S500000x128.size a
  hwx0_2 : ∀ i : grid0.Coords, EltTy.bits .f32 = 32 ∨ (Rect.block (s := S500000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .f32 = 32 ∨ (Rect.block (s := S64x128) S64x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S500000x128.size a
  hwx0_9 : ∀ i : grid0.Coords, EltTy.bits .f32 = 32 ∨ (Rect.block (s := S500000x128) S5000x128.size (cc0_transform_9 i) (hinb0_9 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_v10) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000x128 : Shape := ⟨2, ![500000, 128]⟩
abbrev S384x64 : Shape := ⟨2, ![384, 64]⟩
abbrev S64 : Shape := ⟨1, ![64]⟩
abbrev S64x128 : Shape := ⟨2, ![64, 128]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x384 : Shape := ⟨2, ![500000, 384]⟩
abbrev S500000x64 : Shape := ⟨2, ![500000, 64]⟩
abbrev S1x64 : Shape := ⟨2, ![1, 64]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000x128, .f32⟩
  | .hbm, ⟨3, _⟩ => ⟨S384x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S500000x128, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S500000x384, .f32⟩
  | .hbm, ⟨30, _⟩ => ⟨S500000x64, .f32⟩
  | .hbm, ⟨31, _⟩ => ⟨S1x64, .f32⟩
  | .hbm, ⟨32, _⟩ => ⟨S500000x64, .f32⟩
  | .hbm, ⟨33, _⟩ => ⟨S500000x64, .f32⟩
  | .hbm, ⟨34, _⟩ => ⟨S_, .f32⟩
  | .hbm, ⟨35, _⟩ => ⟨S500000x64, .f32⟩
  | .hbm, ⟨36, _⟩ => ⟨S500000x64, .f32⟩
  | .hbm, ⟨37, _⟩ => ⟨S500000x128, .f32⟩
  | .hbm, ⟨38, _⟩ => ⟨S1x128, .f32⟩
  | .hbm, ⟨39, _⟩ => ⟨S500000x128, .f32⟩
  | .hbm, ⟨40, _⟩ => ⟨S500000x128, .f32⟩
  | .hbm, ⟨41, _⟩ => ⟨S500000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  gather_S50000x128_S500000x1_S500000x128_1_0_n_n_0_1_1128_wf : GatherDims.WF S50000x128 S500000x1 S500000x128 [1] [0] [] [0] [] 1 ![1, 128]
  dot_S500000x384_S384x64_S500000x64_1_0_0_1_n_n_wf : DotDims.WF S500000x384 S384x64 S500000x64 [1] [0] [0] [1] [] []
  dot_S500000x64_S64x128_S500000x128_1_0_0_1_n_n_wf : DotDims.WF S500000x64 S64x128 S500000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x64_S500000x64_1_0_0_1_n_n : DotDims S500000x384 S384x64 S500000x64 where
  lhsContracting := [1]
  rhsContracting := [0]
  lhsNonContracting := [0]
  rhsNonContracting := [1]
  lhsBatch := []
  rhsBatch := []
  wf := dot_S500000x384_S384x64_S500000x64_1_0_0_1_n_n_wf
def dot_S500000x64_S64x128_S500000x128_1_0_0_1_n_n : DotDims S500000x64 S64x128 S500000x128 where
  lhsContracting := [1]
  rhsContracting := [0]
  lhsNonContracting := [0]
  rhsNonContracting := [1]
  lhsBatch := []
  rhsBatch := []
  wf := dot_S500000x64_S64x128_S500000x128_1_0_0_1_n_n_wf

class Facts : Prop extends Facts₀ where

variable [Facts]
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.LibRowBlock.lean ====
/-
  General facts about row blocks, at the ideal values.  A matrix product's entry (r, j) is the sum over k of A(r,k)·B(k,j):
  it needs one row of the left operand, so a block of rows times a matrix is that block of rows of the whole product.
  And a length-n vector written as one row and repeated down the rows reads, at (r, j), its entry j — whether the
  repeating is a kernel's shape cast and broadcast or the host's two broadcasts.  Nothing here mentions a program.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.RowBlockLib

open Idealize.ShloMosaic Idealize.ShloMosaic.ValueIdx Idealize.ShloMosaic.Pipeline

/-- Row a of a block of rows times a matrix is row a' of the whole matrix times it, when the block's row a is the whole
    matrix's row a'. -/
theorem dotGeneral_plain_row {M m k n : Nat} {φ₁ φ₁' φ₂ φ₂' : FTy} (prec prec' : Option ContractPrecision)
    (A : FVec Ideal ⟨2, ![M, k]⟩ φ₁) (Ab : FVec Ideal ⟨2, ![m, k]⟩ φ₁') (B : FVec Ideal ⟨2, ![k, n]⟩ φ₂) (Bb : FVec Ideal ⟨2, ![k, n]⟩ φ₂')
    (a : Fin m) (a' : Fin M) (b : Fin n)
    (hA : ∀ c : Fin k, (Ab (ix2 a c) : EReal) = A (ix2 a' c)) (hB : ∀ c : Fin k, (Bb (ix2 c b) : EReal) = B (ix2 c b)) :
    (Host.dotGeneral (DotDims.plain m k n) prec Ab Bb (ix2 a b) : EReal) = Host.dotGeneral (DotDims.plain M k n) prec' A B (ix2 a' b) := by
  rw [StackMember.dotGeneral_plain_apply, StackMember.dotGeneral_plain_apply]
  exact Finset.sum_congr rfl fun c _ => by rw [hA c, hB c]

/-- A length-n vector stored as one row and broadcast down m rows reads, at (p, j), the vector's entry j. -/
theorem bias_rows_apply {α : Type} {m n : Nat} (hn : n ≠ 1) (v : (⟨1, ![n]⟩ : Shape).Idx → α)
    (h1 : (⟨1, ![n]⟩ : Shape).ShapeCasts ⟨2, ![1, n]⟩) (h2 : (⟨2, ![1, n]⟩ : Shape).Broadcasts ⟨2, ![m, n]⟩) (p : Fin m) (j : Fin n) :
    broadcastTo ⟨2, ![m, n]⟩ (shapeCast ⟨2, ![1, n]⟩ v h1) h2 (ix2 p j) = v (ix1 j) := by
  refine (broadcastTo_apply _ h2 (ix2 p j) (ix2 (0 : Fin 1) j) fun ax => ?_).trans ?_
  · match ax with
    | ⟨0, _⟩ => show (0 : Nat) = if (1 : Nat) = 1 then 0 else p.val; rw [if_pos rfl]
    | ⟨1, _⟩ => show j.val = if n = 1 then 0 else j.val; rw [if_neg hn]
  · refine (shapeCast_addUnit_apply ![n] v h1 (ix2 (0 : Fin 1) j)).trans (congrArg v (funext fun a => ?_))
    match a with
    | ⟨0, _⟩ => rfl

/-- The same read of the host's two broadcasts ([n] to [1, n] along axis 1, then to [M, n]). -/
theorem bias_rows_host_apply {α : Type} {M n : Nat} (hn : n ≠ 1) (v : (⟨1, ![n]⟩ : Shape).Idx → α)
    (h1 : (⟨1, ![n]⟩ : Shape).BroadcastsInDim ⟨2, ![1, n]⟩ ![1]) (h2 : (⟨2, ![1, n]⟩ : Shape).BroadcastsInDim ⟨2, ![M, n]⟩ ![0, 1])
    (r : Fin M) (j : Fin n) :
    broadcastInDim ⟨2, ![M, n]⟩ ![0, 1] h2 (broadcastInDim ⟨2, ![1, n]⟩ ![1] h1 v) (ix2 r j) = v (ix1 j) := by
  refine (broadcastInDim_apply _ h2 _ (ix2 r j) (ix2 (0 : Fin 1) j) fun a => ?_).trans
    (broadcastInDim_apply _ h1 v (ix2 (0 : Fin 1) j) (ix1 j) fun a => ?_)
  · match a with
    | ⟨0, _⟩ => show (0 : Nat) = if (1 : Nat) = 1 then 0 else r.val; rw [if_pos rfl]
    | ⟨1, _⟩ => show j.val = if n = 1 then 0 else j.val; rw [if_neg hn]
  · match a with
    | ⟨0, _⟩ => show j.val = if n = 1 then 0 else j.val; rw [if_neg hn]

end Cert.RowBlockLib

end
-- ==== Proof.Payload.lean ====
/-
  What the kernel body computes for one block of 5000 edges, read at one entry.

  The body multiplies the block's source rows, destination rows and edge rows (5000 × 128 each) by the three
  128 × 64 pieces of the first weight, adds the three products and the bias row, clamps at zero, multiplies by the
  64 × 128 second weight, adds the second bias row and the edge block itself.  A change of float format is the
  identity on extended reals, and a matrix product accumulated into zero is the plain sum of products, so entry
  (p, q) of the result is  e[p,q] + ( Σ_j max( Σ_k xs[p,k]·A[k,j] + Σ_k xd[p,k]·B[k,j] + Σ_k e[p,k]·C[k,j] + b1[j], 0 ) · W2[j,q] + b2[q] ).
-/
import proofs.«104047_j60120952209607_1_alg».proof.Proof.Gen.KernelIdeal.Skeleton
import proofs.«104047_j60120952209607_1_alg».proof.Proof.LibRowOps
import proofs.«104047_j60120952209607_1_alg».proof.Proof.LibRowBlock
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- A 5000 × 128 block times a 128 × 64 matrix, accumulated into zero, at (p, j): row p against column j. -/
theorem first_product (A : FVec Ideal S5000x128 .bf16) (B : FVec Ideal S128x64 .bf16) (p : Fin 5000) (j : Fin 64) :
    matmul dot_S5000x128_S128x64_S5000x64_1_0_0_1_n_n none A B (constant (F := Ideal) S5000x64 .f32 0x00000000#32) (ix2 p j)
      = ∑ k : Fin 128, A (ix2 p k) * B (ix2 k j) := by
  rw [RowLib.dotDims_eq_plain dot_S5000x128_S128x64_S5000x64_1_0_0_1_n_n rfl rfl rfl rfl rfl rfl]
  exact RowLib.matmul_plain_zero_ix2 none A B p j

/-- A 5000 × 64 block times the 64 × 128 matrix, accumulated into zero, at (p, q). -/
theorem second_product (A : FVec Ideal S5000x64 .bf16) (B : FVec Ideal S64x128 .bf16) (p : Fin 5000) (q : Fin 128) :
    matmul dot_S5000x64_S64x128_S5000x128_1_0_0_1_n_n none A B (constant (F := Ideal) S5000x128 .f32 0x00000000#32) (ix2 p q)
      = ∑ j : Fin 64, A (ix2 p j) * B (ix2 j q) := by
  rw [RowLib.dotDims_eq_plain dot_S5000x64_S64x128_S5000x128_1_0_0_1_n_n rfl rfl rfl rfl rfl rfl]
  exact RowLib.matmul_plain_zero_ix2 none A B p q

/-- Entry (p, q) of the block the body stores, from the nine blocks it loads. -/
theorem payload_apply (x0 x1 x2 : Vec Ideal S5000x128 .f32) (x3 x4 x5 : Vec Ideal S128x64 .f32) (x6 : Vec Ideal S64 .f32)
    (x7 : Vec Ideal S64x128 .f32) (x8 : Vec Ideal S128 .f32) (p : Fin 5000) (q : Fin 128) :
    k0_pay1 x0 x1 x2 x3 x4 x5 x6 x7 x8 (ix2 p q)
      = x2 (ix2 p q) + ((∑ j : Fin 64,
          max ((((∑ k : Fin 128, x0 (ix2 p k) * x3 (ix2 k j)) + ∑ k : Fin 128, x1 (ix2 p k) * x4 (ix2 k j))
            + ∑ k : Fin 128, x2 (ix2 p k) * x5 (ix2 k j)) + x6 (ix1 j)) (Ideal.ofBits .f32 0x00000000#32) * x7 (ix2 j q))
          + x8 (ix1 q)) := by
  unfold k0_pay1
  rw [addf_apply, addf_apply, second_product, RowBlockLib.bias_rows_apply (by decide : (128 : Nat) ≠ 1)]
  simp only [truncf_apply, maximumf_apply, addf_apply, first_product, broadcast_apply, shapeCast_self,
    RowBlockLib.bias_rows_apply (by decide : (64 : Nat) ≠ 1), Ideal.ofBits_def]

end Cert.KernelIdeal.Body

end
-- ==== Proof.LibReindex.lean ====
/-
  Re-indexing finite sums over consecutive indices. A sum over `n = a * b` indices is a double sum over `a`
  blocks of `b` indices each, the index written `i * b + j` or `b * i + j`; a sum over `n = a + b + c` indices
  is the sum of its three consecutive blocks. All over an arbitrary additive commutative monoid.
-/
import Mathlib.Algebra.BigOperators.Fin
import Mathlib.Logic.Equiv.Fin.Basic

namespace Cert.LibReindex

open scoped BigOperators

variable {M : Type*} [AddCommMonoid M]

/-- Position `j` of block `i`, among `a` blocks of `b`, lies below `a * b`. -/
theorem mul_add_lt {a b : ℕ} (i : Fin a) (j : Fin b) : i.val * b + j.val < a * b :=
  calc i.val * b + j.val < i.val * b + b := Nat.add_lt_add_left j.isLt _
    _ = (i.val + 1) * b := (Nat.succ_mul _ _).symm
    _ ≤ a * b := Nat.mul_le_mul_right _ i.isLt

/-- The same with the block size written first. -/
theorem mul_add_lt' {a b : ℕ} (i : Fin a) (j : Fin b) : b * i.val + j.val < a * b :=
  Nat.mul_comm b i.val ▸ mul_add_lt i j

/-- A sum over `n = a * b` indices is the double sum over `a` blocks of `b`: the index is `i * b + j`. -/
theorem sum_mul_add {n : ℕ} (a b : ℕ) (hn : n = a * b) (f : Fin n → M) :
    ∑ r : Fin n, f r = ∑ i : Fin a, ∑ j : Fin b, f ⟨i.val * b + j.val, hn ▸ mul_add_lt i j⟩ := by
  subst hn
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.add_comm, Nat.mul_comm]

/-- A sum over `n = a * b` indices is the double sum over `a` blocks of `b`: the index is `b * i + j`. -/
theorem sum_mul_add' {n : ℕ} (a b : ℕ) (hn : n = a * b) (f : Fin n → M) :
    ∑ r : Fin n, f r = ∑ i : Fin a, ∑ j : Fin b, f ⟨b * i.val + j.val, hn ▸ mul_add_lt' i j⟩ := by
  rw [sum_mul_add a b hn f]
  refine Finset.sum_congr rfl fun i _ => Finset.sum_congr rfl fun j _ => congrArg f (Fin.ext ?_)
  show i.val * b + j.val = b * i.val + j.val
  rw [Nat.mul_comm]

/-- A sum over `n = a + b + c` indices is the sum of its three consecutive blocks. -/
theorem sum_three_blocks {n : ℕ} (a b c : ℕ) (hn : n = a + b + c) (f : Fin n → M) :
    ∑ k : Fin n, f k
      = (∑ i : Fin a, f ⟨i.val, by omega⟩ + ∑ i : Fin b, f ⟨a + i.val, by omega⟩)
        + ∑ i : Fin c, f ⟨a + b + i.val, by omega⟩ := by
  subst hn
  rw [Fin.sum_univ_add, Fin.sum_univ_add]
  rfl

end Cert.LibReindex
-- ==== Proof.Spec.lean ====
/-
  The edge update as one function of its arrays, index by index, on the extended reals.

  For edge r and feature q the result is  e[r,q] + ( Σ_j hidden[r,j] · W2[j,q]  +  b2[q] ),  where
  hidden[r,j] = max( s[r,j] + b1[j], 0 )  and  s[r,j]  is row r of the joined features  [xs | xd | e]  against
  column j of the 384-row weight W1.  The joined row has three consecutive blocks of 128 entries, so
  s[r,j]  is the sum of three 128-term sums, one per block, against rows 0–127, 128–255 and 256–383 of W1:
  a sum over 384 consecutive indices is the sum of its three blocks, which needs only that addition is
  associative and commutative — no entry has to be finite.
-/
import Idealize.ShloMosaic.PureOps.Ideal
import Idealize.ShloMosaic.Lib.ValueIdx
import proofs.«104047_j60120952209607_1_alg».proof.Proof.LibReindex

noncomputable section

open scoped BigOperators

namespace Cert.EdgeUpdate

open Idealize.ShloMosaic Idealize.ShloMosaic.ValueIdx

/-- Entry k of the first block of a 384-long axis. -/
abbrev lo (k : Fin 128) : Fin 384 := ⟨k.val, by omega⟩
/-- Entry k of the middle block. -/
abbrev mid (k : Fin 128) : Fin 384 := ⟨128 + k.val, by omega⟩
/-- Entry k of the last block. -/
abbrev hi (k : Fin 128) : Fin 384 := ⟨256 + k.val, by omega⟩

/-- A sum over the 384 joined positions is the sum over the three blocks of 128. -/
theorem sum_joined {M : Type*} [AddCommMonoid M] (f : Fin 384 → M) :
    ∑ k : Fin 384, f k = (∑ k : Fin 128, f (lo k) + ∑ k : Fin 128, f (mid k)) + ∑ k : Fin 128, f (hi k) :=
  LibReindex.sum_three_blocks 128 128 128 rfl f

/-- The hidden unit j of edge r: the three block products added, the bias added, clamped below at zero. -/
def hidden (xs xd e : FVec Ideal ⟨2, ![500000, 128]⟩ .f32) (W1 : FVec Ideal ⟨2, ![384, 64]⟩ .f32)
    (b1 : FVec Ideal ⟨1, ![64]⟩ .f32) (r : Fin 500000) (j : Fin 64) : EReal :=
  max ((((∑ k : Fin 128, xs (ix2 r k) * W1 (ix2 (lo k) j)) + ∑ k : Fin 128, xd (ix2 r k) * W1 (ix2 (mid k) j))
      + ∑ k : Fin 128, e (ix2 r k) * W1 (ix2 (hi k) j)) + b1 (ix1 j)) (Ideal.ofBits .f32 0x00000000#32)

/-- The updated edge features: the residual e plus the second layer of the hidden units. -/
def update (xs xd e : FVec Ideal ⟨2, ![500000, 128]⟩ .f32) (W1 : FVec Ideal ⟨2, ![384, 64]⟩ .f32)
    (b1 : FVec Ideal ⟨1, ![64]⟩ .f32) (W2 : FVec Ideal ⟨2, ![64, 128]⟩ .f32) (b2 : FVec Ideal ⟨1, ![128]⟩ .f32) :
    FVec Ideal ⟨2, ![500000, 128]⟩ .f32 := fun i =>
  e i + ((∑ j : Fin 64, hidden xs xd e W1 b1 (i 0) j * W2 (ix2 j (i 1))) + b2 (ix1 (i 1)))

/-- The hidden unit from the joined row: if `cat` holds xs, xd, e side by side, the one 384-term product is the three
    block products. -/
theorem hidden_of_joined (xs xd e : FVec Ideal ⟨2, ![500000, 128]⟩ .f32) (cat : FVec Ideal ⟨2, ![500000, 384]⟩ .f32)
    (W1 : FVec Ideal ⟨2, ![384, 64]⟩ .f32) (b1 : FVec Ideal ⟨1, ![64]⟩ .f32) (r : Fin 500000) (j : Fin 64)
    (h0 : ∀ k : Fin 128, cat (ix2 r (lo k)) = xs (ix2 r k)) (h1 : ∀ k : Fin 128, cat (ix2 r (mid k)) = xd (ix2 r k))
    (h2 : ∀ k : Fin 128, cat (ix2 r (hi k)) = e (ix2 r k)) :
    max ((∑ k : Fin 384, cat (ix2 r k) * W1 (ix2 k j)) + b1 (ix1 j)) (Ideal.ofBits .f32 0x00000000#32)
      = hidden xs xd e W1 b1 r j := by
  unfold hidden
  rw [sum_joined]
  simp only [h0, h1, h2]

end Cert.EdgeUpdate

end
-- ==== Proof.Blocks.lean ====
/-
  From the blocks to the whole array.

  Grid point t works on edges 5000·t … 5000·t + 4999: the three moving windows and the output window sit at block
  row t, so row p of a block is row 5000·t + p of its array; the weight and bias windows stay at block 0, so they
  read their whole arrays.  Before the region the host has gathered the source and destination rows of x and cut
  the first weight into its three 128-row pieces, so row k of piece 0, 1, 2 is row k, 128 + k, 256 + k of W1.
  Hence what point t writes back is block t of the edge update of the gathered rows, and the hundred blocks
  cover the array: row R lies in block R / 5000.
-/
import proofs.«104047_j60120952209607_1_alg».proof.Proof.Gen.KernelIdeal.Value
import proofs.«104047_j60120952209607_1_alg».proof.Proof.Payload
import proofs.«104047_j60120952209607_1_alg».proof.Proof.Spec
import Idealize.ShloMosaic.Lib.StableHlo.Run
import Idealize.ShloMosaic.Lib.Pipeline.Value
import Idealize.ShloMosaic.Lib.ValueIdx
import Idealize.ShloMosaic.Lib.Tactic

noncomputable section

open scoped BigOperators

namespace Cert.KernelIdeal.Blocks

open Cert.KernelIdeal Cert.KernelIdeal.Gen Cert.KernelIdeal.Body
open Idealize.ShloMosaic Idealize.ShloMosaic.TcCoe Idealize.SL.Sem Idealize.ShloMosaic.StableHlo Idealize.ShloMosaic.ValueIdx
open Idealize.ShloMosaic.Pipeline (Dat)
open Cert.EdgeUpdate

/-! ## The arrays the region finds -/

/-- The rows of x named by the edges' source nodes (a negative node number counted from the end), as the host gathers them. -/
def srcRows (x0 : (⟨S50000x128, .f32⟩ : BufTy).Contents (Elt Ideal)) (x1 : (⟨S2x500000, .i32⟩ : BufTy).Contents (Elt Ideal)) :
    (⟨S500000x128, .f32⟩ : BufTy).Contents (Elt Ideal) :=
  Host.gather gather_S50000x128_S500000x1_S500000x128_1_0_n_n_0_1_1128 x0 (broadcastInDim S500000x1 ![0] bcast_S500000_S500000x1_0 (select (cmpi .slt (shapeCast _ (extractStridedSlice S1x500000 ![0, 0] x1 slices_S2x500000_S1x500000_0_0) shapeCasts_S1x500000_S500000) (broadcastInDim S500000 ![] bcast_S_S500000 (constantI S_ 32 0#32))) (addi (shapeCast _ (extractStridedSlice S1x500000 ![0, 0] x1 slices_S2x500000_S1x500000_0_0) shapeCasts_S1x500000_S500000) (broadcastInDim S500000 ![] bcast_S_S500000 (constantI S_ 32 50000#32))) (shapeCast _ (extractStridedSlice S1x500000 ![0, 0] x1 slices_S2x500000_S1x500000_0_0) shapeCasts_S1x500000_S500000)))

/-- The rows of x named by the edges' destination nodes. -/
def dstRows (x0 : (⟨S50000x128, .f32⟩ : BufTy).Contents (Elt Ideal)) (x1 : (⟨S2x500000, .i32⟩ : BufTy).Contents (Elt Ideal)) :
    (⟨S500000x128, .f32⟩ : BufTy).Contents (Elt Ideal) :=
  Host.gather gather_S50000x128_S500000x1_S500000x128_1_0_n_n_0_1_1128 x0 (broadcastInDim S500000x1 ![0] bcast_S500000_S500000x1_0 (select (cmpi .slt (shapeCast _ (extractStridedSlice S1x500000 ![1, 0] x1 slices_S2x500000_S1x500000_1_0) shapeCasts_S1x500000_S500000) (broadcastInDim S500000 ![] bcast_S_S500000 (constantI S_ 32 0#32))) (addi (shapeCast _ (extractStridedSlice S1x500000 ![1, 0] x1 slices_S2x500000_S1x500000_1_0) shapeCasts_S1x500000_S500000) (broadcastInDim S500000 ![] bcast_S_S500000 (constantI S_ 32 50000#32))) (shapeCast _ (extractStridedSlice S1x500000 ![1, 0] x1 slices_S2x500000_S1x500000_1_0) shapeCasts_S1x500000_S500000)))

variable (m : (ℓ : Loc nD τ sig) → Buf (Elt Ideal) ℓ) (ρ : Dev nD → PrngReg)

theorem V_src (c : Dev nD) :
    (V m c main_v10 : S500000x128.Idx → EReal) = srcRows (m ((c : Thread nD τ).loc main_arg0)) (m ((c : Thread nD τ).loc main_arg1)) := by
  dsimp only [Gen.V, Gen.hostOps0]
  after_results
  rfl

theorem V_dst (c : Dev nD) :
    (V m c main_v17 : S500000x128.Idx → EReal) = dstRows (m ((c : Thread nD τ).loc main_arg0)) (m ((c : Thread nD τ).loc main_arg1)) := by
  dsimp only [Gen.V, Gen.hostOps0]
  after_results
  rfl

/-- Row k of the first piece of the first weight is row k of W1. -/
theorem V_w1_lo (c : Dev nD) (k : Fin 128) (j : Fin 64) :
    (V m c main_v18 : S128x64.Idx → EReal) (ix2 k j) = ((m ((c : Thread nD τ).loc main_arg3)) : S384x64.Idx → EReal) (ix2 (lo k) j) := by
  have e : (V m c main_v18 : S128x64.Idx → EReal) = extractStridedSlice S128x64 ![0, 0] (m ((c : Thread nD τ).loc main_arg3)) slices_S384x64_S128x64_0_0 := by
    dsimp only [Gen.V, Gen.hostOps0]
    after_results
  rw [e]
  refine extractStridedSlice_apply _ _ _ (ix2 k j) (ix2 (lo k) j) fun a => ?_
  match a with
  | ⟨0, _⟩ => exact (Nat.zero_add _).symm
  | ⟨1, _⟩ => exact (Nat.zero_add _).symm

/-- Row k of the middle piece is row 128 + k of W1. -/
theorem V_w1_mid (c : Dev nD) (k : Fin 128) (j : Fin 64) :
    (V m c main_v19 : S128x64.Idx → EReal) (ix2 k j) = ((m ((c : Thread nD τ).loc main_arg3)) : S384x64.Idx → EReal) (ix2 (mid k) j) := by
  have e : (V m c main_v19 : S128x64.Idx → EReal) = extractStridedSlice S128x64 ![128, 0] (m ((c : Thread nD τ).loc main_arg3)) slices_S384x64_S128x64_128_0 := by
    dsimp only [Gen.V, Gen.hostOps0]
    after_results
  rw [e]
  refine extractStridedSlice_apply _ _ _ (ix2 k j) (ix2 (mid k) j) fun a => ?_
  match a with
  | ⟨0, _⟩ => rfl
  | ⟨1, _⟩ => exact (Nat.zero_add _).symm

/-- Row k of the last piece is row 256 + k of W1. -/
theorem V_w1_hi (c : Dev nD) (k : Fin 128) (j : Fin 64) :
    (V m c main_v20 : S128x64.Idx → EReal) (ix2 k j) = ((m ((c : Thread nD τ).loc main_arg3)) : S384x64.Idx → EReal) (ix2 (hi k) j) := by
  have e : (V m c main_v20 : S128x64.Idx → EReal) = extractStridedSlice S128x64 ![256, 0] (m ((c : Thread nD τ).loc main_arg3)) slices_S384x64_S128x64_256_0 := by
    dsimp only [Gen.V, Gen.hostOps0]
    after_results
  rw [e]
  refine extractStridedSlice_apply _ _ _ (ix2 k j) (ix2 (hi k) j) fun a => ?_
  match a with
  | ⟨0, _⟩ => rfl
  | ⟨1, _⟩ => exact (Nat.zero_add _).symm

/-! ## Where each window's block sits -/

theorem hz : (![0, 0] : Fin 2 → Nat) = fun _ => 0 := funext fun a => by fin_cases a <;> rfl
theorem hz1 : (![0] : Fin 1 → Nat) = fun _ => 0 := funext fun a => by fin_cases a; rfl

/-- The three edge windows and the output window are at block row t, block column 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0 :=
  (by decide +kernel : ∀ t : Fin grid0.N, _)

/-- The weight and bias windows are at block 0 at every point. -/
theorem idx_fixed : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

theorem point_lt (t : Fin cfg0.N) : t.val < 100 := lt_of_lt_of_eq t.isLt N_0

/-- Row p of block t is row 5000·t + p of the array. -/
def row (t : Fin cfg0.N) (p : Fin 5000) : Fin 500000 := ⟨5000 * t.val + p.val, by have := point_lt t; omega⟩

/-- The source block at point t, row p, is the gathered source rows at row 5000·t + p. -/
theorem src_block (c : Dev nD) (t : Fin cfg0.N) (p : Fin 5000) (k : Fin 128) :
    (iblk m c 0 t : Vec Ideal S5000x128 .f32) (ix2 p k) = srcRows (m ((c : Thread nD τ).loc main_arg0)) (m ((c : Thread nD τ).loc main_arg1)) (ix2 (row t p) k) := by
  obtain ⟨e0, e1, -⟩ := idx_rows t
  rw [← V_src m c]
  unfold iblk
  rw [View.read_apply]
  show V m c main_v10 _ = V m c main_v10 _
  refine congrArg (V m c main_v10) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The destination block likewise. -/
theorem dst_block (c : Dev nD) (t : Fin cfg0.N) (p : Fin 5000) (k : Fin 128) :
    (iblk m c 1 t : Vec Ideal S5000x128 .f32) (ix2 p k) = dstRows (m ((c : Thread nD τ).loc main_arg0)) (m ((c : Thread nD τ).loc main_arg1)) (ix2 (row t p) k) := by
  obtain ⟨-, -, e0, e1, -⟩ := idx_rows t
  rw [← V_dst m c]
  unfold iblk
  rw [View.read_apply]
  show V m c main_v17 _ = V m c main_v17 _
  refine congrArg (V m c main_v17) (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- The edge block likewise, of the edge argument itself. -/
theorem edge_block (c : Dev nD) (t : Fin cfg0.N) (p : Fin 5000) (k : Fin 128) :
    (iblk m c 2 t : Vec Ideal S5000x128 .f32) (ix2 p k) = ((m ((c : Thread nD τ).loc main_arg2)) : S500000x128.Idx → EReal) (ix2 (row t p) k) := by
  obtain ⟨-, -, -, -, e0, e1, -⟩ := idx_rows t
  rw [← V_main_arg2 m c]
  unfold iblk
  rw [View.read_apply]
  show V m c main_arg2 _ = V m c main_arg2 _
  refine congrArg (V m c main_arg2) (funext fun a => Fin.ext ?_)
  match a with
  | ⟨0, _⟩ => show win0_2.index t (0 : Fin 2) * 5000 + 1 * p.val = 5000 * t.val + p.val; rw [e0]; omega
  | ⟨1, _⟩ => show win0_2.index t (1 : Fin 2) * 128 + 1 * k.val = k.val; rw [e1]; omega

/-- The three pieces of the first weight, each read whole. -/
theorem w1_lo_block (c : Dev nD) (t : Fin cfg0.N) (k : Fin 128) (j : Fin 64) :
    (iblk m c 3 t : Vec Ideal S128x64 .f32) (ix2 k j) = ((m ((c : Thread nD τ).loc main_arg3)) : S384x64.Idx → EReal) (ix2 (lo k) j) := by
  obtain ⟨e0, e1, -⟩ := idx_fixed t
  rw [← V_w1_lo m c]
  unfold iblk
  rw [View.read_apply]
  show V m c main_v18 _ = V m c main_v18 _
  refine congrArg (V m c main_v18) (funext fun a => Fin.ext ?_)
  match a with
  | ⟨0, _⟩ => show win0_3.index t (0 : Fin 2) * 128 + 1 * k.val = k.val; rw [e0]; omega
  | ⟨1, _⟩ => show win0_3.index t (1 : Fin 2) * 64 + 1 * j.val = j.val; rw [e1]; omega

theorem w1_mid_block (c : Dev nD) (t : Fin cfg0.N) (k : Fin 128) (j : Fin 64) :
    (iblk m c 4 t : Vec Ideal S128x64 .f32) (ix2 k j) = ((m ((c : Thread nD τ).loc main_arg3)) : S384x64.Idx → EReal) (ix2 (mid k) j) := by
  obtain ⟨-, -, e0, e1, -⟩ := idx_fixed t
  rw [← V_w1_mid m c]
  unfold iblk
  rw [View.read_apply]
  show V m c main_v19 _ = V m c main_v19 _
  refine congrArg (V m c main_v19) (funext fun a => Fin.ext ?_)
  match a with
  | ⟨0, _⟩ => show win0_4.index t (0 : Fin 2) * 128 + 1 * k.val = k.val; rw [e0]; omega
  | ⟨1, _⟩ => show win0_4.index t (1 : Fin 2) * 64 + 1 * j.val = j.val; rw [e1]; omega

theorem w1_hi_block (c : Dev nD) (t : Fin cfg0.N) (k : Fin 128) (j : Fin 64) :
    (iblk m c 5 t : Vec Ideal S128x64 .f32) (ix2 k j) = ((m ((c : Thread nD τ).loc main_arg3)) : S384x64.Idx → EReal) (ix2 (hi k) j) := by
  obtain ⟨-, -, -, -, e0, e1, -⟩ := idx_fixed t
  rw [← V_w1_hi m c]
  unfold iblk
  rw [View.read_apply]
  show V m c main_v20 _ = V m c main_v20 _
  refine congrArg (V m c main_v20) (funext fun a => Fin.ext ?_)
  match a with
  | ⟨0, _⟩ => show win0_5.index t (0 : Fin 2) * 128 + 1 * k.val = k.val; rw [e0]; omega
  | ⟨1, _⟩ => show win0_5.index t (1 : Fin 2) * 64 + 1 * j.val = j.val; rw [e1]; omega

/-- The first bias, read whole. -/
theorem b1_block (c : Dev nD) (t : Fin cfg0.N) (j : Fin 64) :
    (iblk m c 6 t : Vec Ideal S64 .f32) (ix1 j) = ((m ((c : Thread nD τ).loc main_arg4)) : S64.Idx → EReal) (ix1 j) := by
  obtain ⟨-, -, -, -, -, -, e0, -⟩ := idx_fixed t
  rw [← V_main_arg4 m c]
  unfold iblk
  rw [View.read_apply]
  show V m c main_arg4 _ = V m c main_arg4 _
  refine congrArg (V m c main_arg4) (funext fun a => Fin.ext ?_)
  match a with
  | ⟨0, _⟩ => show win0_6.index t (0 : Fin 1) * 64 + 1 * j.val = j.val; rw [e0]; omega

/-- The second weight, read whole. -/
theorem w2_block (c : Dev nD) (t : Fin cfg0.N) (j : Fin 64) (q : Fin 128) :
    (iblk m c 7 t : Vec Ideal S64x128 .f32) (ix2 j q) = ((m ((c : Thread nD τ).loc main_arg5)) : S64x128.Idx → EReal) (ix2 j q) := by
  obtain ⟨-, -, -, -, -, -, -, e0, e1, -⟩ := idx_fixed t
  rw [← V_main_arg5 m c]
  unfold iblk
  rw [View.read_apply]
  show V m c main_arg5 _ = V m c main_arg5 _
  refine congrArg (V m c main_arg5) (funext fun a => Fin.ext ?_)
  match a with
  | ⟨0, _⟩ => show win0_7.index t (0 : Fin 2) * 64 + 1 * j.val = j.val; rw [e0]; omega
  | ⟨1, _⟩ => show win0_7.index t (1 : Fin 2) * 128 + 1 * q.val = q.val; rw [e1]; omega

/-- The second bias, read whole. -/
theorem b2_block (c : Dev nD) (t : Fin cfg0.N) (q : Fin 128) :
    (iblk m c 8 t : Vec Ideal S128 .f32) (ix1 q) = ((m ((c : Thread nD τ).loc main_arg6)) : S128.Idx → EReal) (ix1 q) := by
  obtain ⟨-, -, -, -, -, -, -, -, -, e0⟩ := idx_fixed t
  rw [← V_main_arg6 m c]
  unfold iblk
  rw [View.read_apply]
  show V m c main_arg6 _ = V m c main_arg6 _
  refine congrArg (V m c main_arg6) (funext fun a => Fin.ext ?_)
  match a with
  | ⟨0, _⟩ => show win0_8.index t (0 : Fin 1) * 128 + 1 * q.val = q.val; rw [e0]; omega

end Cert.KernelIdeal.Blocks

end
-- ==== Proof.BlockUpdate.lean ====
/-
  One block of the body's result is the matching rows of the edge update.

  If row p of the three edge blocks is row R of the gathered source rows, the gathered destination rows and the
  edge array, the three weight blocks are the three 128-row pieces of W1, and the bias and second-weight blocks are
  the whole arrays, then entry (p, q) of what the body stores is entry (R, q) of the edge update: both are
  e[R,q] + ( Σ_j max( the three block products + b1[j], 0 ) · W2[j,q] + b2[q] ), term for term.
-/
import proofs.«104047_j60120952209607_1_alg».proof.Proof.Payload
import proofs.«104047_j60120952209607_1_alg».proof.Proof.Spec

noncomputable section

open scoped BigOperators

namespace Cert.KernelIdeal.Body

open Cert.KernelIdeal Cert.KernelIdeal.Gen Idealize.ShloMosaic Idealize.ShloMosaic.ValueIdx Cert.EdgeUpdate

theorem block_update (xs xd e : FVec Ideal ⟨2, ![500000, 128]⟩ .f32) (W1 : FVec Ideal ⟨2, ![384, 64]⟩ .f32)
    (b1 : FVec Ideal ⟨1, ![64]⟩ .f32) (W2 : FVec Ideal ⟨2, ![64, 128]⟩ .f32) (b2 : FVec Ideal ⟨1, ![128]⟩ .f32)
    (x0 x1 x2 : Vec Ideal S5000x128 .f32) (x3 x4 x5 : Vec Ideal S128x64 .f32) (x6 : Vec Ideal S64 .f32)
    (x7 : Vec Ideal S64x128 .f32) (x8 : Vec Ideal S128 .f32) (R : Fin 500000) (p : Fin 5000) (q : Fin 128)
    (h0 : ∀ k : Fin 128, x0 (ix2 p k) = xs (ix2 R k)) (h1 : ∀ k : Fin 128, x1 (ix2 p k) = xd (ix2 R k))
    (h2 : ∀ k : Fin 128, x2 (ix2 p k) = e (ix2 R k))
    (h3 : ∀ (k : Fin 128) (j : Fin 64), x3 (ix2 k j) = W1 (ix2 (lo k) j))
    (h4 : ∀ (k : Fin 128) (j : Fin 64), x4 (ix2 k j) = W1 (ix2 (mid k) j))
    (h5 : ∀ (k : Fin 128) (j : Fin 64), x5 (ix2 k j) = W1 (ix2 (hi k) j))
    (h6 : ∀ j : Fin 64, x6 (ix1 j) = b1 (ix1 j)) (h7 : ∀ (j : Fin 64) (q : Fin 128), x7 (ix2 j q) = W2 (ix2 j q))
    (h8 : ∀ q : Fin 128, x8 (ix1 q) = b2 (ix1 q)) :
    k0_pay1 x0 x1 x2 x3 x4 x5 x6 x7 x8 (ix2 p q) = update xs xd e W1 b1 W2 b2 (ix2 R q) := by
  rw [payload_apply]
  show _ = e (ix2 R q) + ((∑ j : Fin 64, hidden xs xd e W1 b1 R j * W2 (ix2 j q)) + b2 (ix1 q))
  unfold Cert.EdgeUpdate.hidden
  simp only [h0, h1, h2, h3, h4, h5, h6, h7, h8]

end Cert.KernelIdeal.Body

end
-- ==== Proof.Whole.lean ====
/-
  The kernel's result array is the edge update.

  Point t writes back block t of the edge update (each entry of the body's block is the matching entry of the update,
  by the block reads), the hundred blocks of 5000 rows cover the 500000 rows, so after the run the whole array is
  the update of the gathered rows, the edge array and the weights.
-/
import proofs.«104047_j60120952209607_1_alg».proof.Proof.Blocks
import proofs.«104047_j60120952209607_1_alg».proof.Proof.BlockUpdate

noncomputable section

open scoped BigOperators

namespace Cert.KernelIdeal.Whole

open Cert.KernelIdeal Cert.KernelIdeal.Gen Cert.KernelIdeal.Body Cert.KernelIdeal.Blocks
open Idealize.ShloMosaic Idealize.ShloMosaic.TcCoe Idealize.SL.Sem Idealize.ShloMosaic.ValueIdx
open Idealize.ShloMosaic.Pipeline (Dat)
open Cert.EdgeUpdate

variable (m : (ℓ : Loc nD τ sig) → Buf (Elt Ideal) ℓ) (ρ : Dev nD → PrngReg)

/-- The edge update of the launch contents: of the rows of x gathered at the two ends of every edge, the edge
    features, and the two layers' weights and biases. -/
def result (c : Dev nD) : (⟨S500000x128, .f32⟩ : BufTy).Contents (Elt Ideal) :=
  update (srcRows (m ((c : Thread nD τ).loc main_arg0)) (m ((c : Thread nD τ).loc main_arg1))) (dstRows (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6))

/-- Entry (p, q) of the output's block t is entry (5000·t + p, q) of the array. -/
theorem out_emb (t : Fin cfg0.N) (p : Fin 5000) (q : Fin 128) :
    ((cfg0.win 9).blk t).view.emb (ix2 p q : S5000x128.Idx) = (ix2 (row t p) q : S500000x128.Idx) := by
  obtain ⟨-, -, -, -, -, -, e0, e1⟩ := idx_rows t
  funext a
  apply Fin.ext
  match a with
  | ⟨0, _⟩ => show win0_9.index t (0 : Fin 2) * 5000 + 1 * p.val = 5000 * t.val + p.val; rw [e0]; omega
  | ⟨1, _⟩ => show win0_9.index t (1 : Fin 2) * 128 + 1 * q.val = q.val; rw [e1]; omega

/-- What point t writes back is block t of the edge update. -/
theorem flushed_eq (c : Dev nD) (t : Fin cfg0.N) :
    (dats m 0 c).flushed 9 t = ((cfg0.win 9).blk t).view.read (Elt Ideal) (result m c) := by
  rw [Cert.KernelIdeal.Value.flushed9]
  unfold out0_9
  rw [View.canon_unit_zero hz]
  simp only [View.ld_unit_zero (S := S5000x128) hz, View.ld_unit_zero (S := S128x64) hz, View.ld_unit_zero (S := S64) hz1,
    View.ld_unit_zero (S := S64x128) hz, View.ld_unit_zero (S := S128) hz1]
  funext y
  obtain ⟨p, q, rfl⟩ : ∃ (p : Fin 5000) (q : Fin 128), y = (ix2 p q : S5000x128.Idx) := ⟨y 0, y 1, eq_ix2 y⟩
  rw [View.read_apply, out_emb]
  exact block_update _ _ _ _ _ _ _ (iblk m c 0 t) (iblk m c 1 t) (iblk m c 2 t) (iblk m c 3 t) (iblk m c 4 t) (iblk m c 5 t)
    (iblk m c 6 t) (iblk m c 7 t) (iblk m c 8 t) (row t p) p q (src_block m c t p) (dst_block m c t p) (edge_block m c t p)
    (w1_lo_block m c t) (w1_mid_block m c t) (w1_hi_block m c t) (b1_block m c t) (w2_block m c t) (b2_block m c t)

/-- An index of the array is in point t's block iff each coordinate is in the block's range on its axis. -/
theorem mem_out_blk (t : Fin cfg0.N) (i : S500000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v21).slice (win0_9.rect t)).set ↔ _
  rw [View.set_slice_whole, Rect.mem_set_unit]
  exact Iff.rfl

/-- Every index of the array lies in the block of the point its row over 5000 names. -/
theorem covered (i : S500000x128.Idx) :
    ∃ t : Fin cfg0.N, (cfg0.win 9).flush t = true ∧ i ∈ ((cfg0.win 9).blk t).view.set := by
  have h0 : (i 0).val < 500000 := (i 0).isLt
  have h1 : (i 1).val < 128 := (i 1).isLt
  have ht : (i 0).val / 5000 < cfg0.N := lt_of_lt_of_eq (by omega : (i 0).val / 5000 < 100) N_0.symm
  obtain ⟨-, -, -, -, -, -, e0, e1⟩ := idx_rows ⟨(i 0).val / 5000, ht⟩
  refine ⟨⟨(i 0).val / 5000, ht⟩, flush0_9 _, ?_⟩
  rw [mem_out_blk]
  intro a
  match a with
  | ⟨0, _⟩ =>
    show win0_9.index ⟨(i 0).val / 5000, ht⟩ (0 : Fin 2) * 5000 ≤ (i 0).val
      ∧ (i 0).val < win0_9.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_9.index ⟨(i 0).val / 5000, ht⟩ (1 : Fin 2) * 128 ≤ (i 1).val
      ∧ (i 1).val < win0_9.index ⟨(i 0).val / 5000, ht⟩ (1 : Fin 2) * 128 + 128
    rw [e1]
    omega

/-- After the run the result array holds the edge update. -/
theorem final (c : Dev nD) : (dats m 0 c).arrAt 9 cfg0.N = result m c :=
  (dats m 0 c).arrAt_eq_of_cover 9 (result m c) (fun t _ => flushed_eq m c t) covered

/-- The kernel's run, read: the result array at the edge update of the launch contents, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Whole

end
-- ==== Proof.RefIsSpec.lean ====
/-
  The reference computes the edge update.

  Its joined array holds, in row r, the gathered source row, the gathered destination row and the edge row side by
  side: column k of the first, middle and last block of 128 is entry k of the respective piece.  Its first product
  contracts the 384 joined columns against the 384 rows of W1, so by the three-block law it is the sum of the
  three 128-term products; the bias, the clamp at zero, the second product, its bias and the residual follow
  entry by entry.
-/
import proofs.«104047_j60120952209607_1_alg».proof.Proof.Gen.ReferenceIdeal.Read
import proofs.«104047_j60120952209607_1_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read
open Idealize.ShloMosaic Idealize.ShloMosaic.ValueIdx Cert.EdgeUpdate

variable (x0 : (⟨S50000x128, .f32⟩ : BufTy).Contents (Elt Ideal)) (x1 : (⟨S2x500000, .i32⟩ : BufTy).Contents (Elt Ideal))
  (x2 : (⟨S500000x128, .f32⟩ : BufTy).Contents (Elt Ideal)) (x3 : (⟨S384x64, .f32⟩ : BufTy).Contents (Elt Ideal))
  (x4 : (⟨S64, .f32⟩ : BufTy).Contents (Elt Ideal)) (x5 : (⟨S64x128, .f32⟩ : BufTy).Contents (Elt Ideal))
  (x6 : (⟨S128, .f32⟩ : BufTy).Contents (Elt Ideal))

/-- Column k of the first block of the joined row r is entry k of the gathered source row. -/
theorem joined_lo (r : Fin 500000) (k : Fin 128) :
    val_main_v18 (F := Ideal) x0 x1 x2 (ix2 r (lo k)) = val_main_v10 (F := Ideal) x0 x1 (ix2 r k) := by
  unfold val_main_v18
  refine concatenate_apply_piece 1 _ _ (ix2 r (lo k)) 0 (by show (0 : Nat) < 3; omega) S500000x128 _ rfl rfl 0 rfl (ix2 r k)
    (fun b hb => ?_) (Nat.zero_add _)
  match b, hb with
  | ⟨0, _⟩, _ => rfl
  | ⟨1, _⟩, hb => exact absurd rfl hb

/-- Column k of the middle block is entry k of the gathered destination row. -/
theorem joined_mid (r : Fin 500000) (k : Fin 128) :
    val_main_v18 (F := Ideal) x0 x1 x2 (ix2 r (mid k)) = val_main_v17 (F := Ideal) x0 x1 (ix2 r k) := by
  unfold val_main_v18
  refine concatenate_apply_piece 1 _ _ (ix2 r (mid k)) 1 (by show (1 : Nat) < 3; omega) S500000x128 _ rfl rfl 128 rfl (ix2 r k)
    (fun b hb => ?_) rfl
  match b, hb with
  | ⟨0, _⟩, _ => rfl
  | ⟨1, _⟩, hb => exact absurd rfl hb

/-- Column k of the last block is entry k of the edge row. -/
theorem joined_hi (r : Fin 500000) (k : Fin 128) :
    val_main_v18 (F := Ideal) x0 x1 x2 (ix2 r (hi k)) = x2 (ix2 r k) := by
  unfold val_main_v18
  refine concatenate_apply_piece 1 _ _ (ix2 r (hi k)) 2 (by show (2 : Nat) < 3; omega) S500000x128 _ rfl rfl 256 rfl (ix2 r k)
    (fun b hb => ?_) rfl
  match b, hb with
  | ⟨0, _⟩, _ => rfl
  | ⟨1, _⟩, hb => exact absurd rfl hb

/-- The reference's clamped first layer at (r, j) is the hidden unit j of edge r. -/
theorem hidden_eq (r : Fin 500000) (j : Fin 64) :
    val_main_v23 (F := Ideal) x0 x1 x2 x3 x4 (ix2 r j)
      = hidden (val_main_v10 (F := Ideal) x0 x1) (val_main_v17 (F := Ideal) x0 x1) x2 x3 x4 r j := by
  have el : ∀ k : Fin 384, lidx_main_v19 (ix2 r j) k = ix2 r k := fun k => funext fun a => by
    match a with | ⟨0, _⟩ => rfl | ⟨1, _⟩ => rfl
  have er : ∀ k : Fin 384, ridx_main_v19 (ix2 r j) k = ix2 k j := fun k => funext fun a => by
    match a with | ⟨0, _⟩ => rfl | ⟨1, _⟩ => rfl
  have eb : idx_main_v20 (idx_main_v21 (ix2 r j)) = ix1 j := funext fun a => by
    match a with | ⟨0, _⟩ => rfl
  rw [val_main_v23_apply, val_main_v22_apply, val_main_v19_apply, val_main_v21_apply, val_main_v20_apply,
    val_main_call0_v0_apply, val_main_call0_cst_apply]
  simp only [el, er, eb, Ideal.maximumf_def, Ideal.addf_def, Ideal.ofBits_def]
  exact hidden_of_joined _ _ x2 _ x3 x4 r j (joined_lo x0 x1 x2 r) (joined_mid x0 x1 x2 r) (joined_hi x0 x1 x2 r)

/-- The reference's result is the edge update of the two gathered arrays, the edge array and the weights. -/
theorem result_eq :
    val_main_v28 (F := Ideal) x0 x1 x2 x3 x4 x5 x6
      = update (val_main_v10 (F := Ideal) x0 x1) (val_main_v17 (F := Ideal) x0 x1) x2 x3 x4 x5 x6 := by
  funext i
  obtain ⟨r, q, rfl⟩ : ∃ (r : Fin 500000) (q : Fin 128), i = ix2 r q := ⟨i 0, i 1, eq_ix2 i⟩
  have el : ∀ j : Fin 64, lidx_main_v24 (ix2 r q) j = ix2 r j := fun j => funext fun a => by
    match a with | ⟨0, _⟩ => rfl | ⟨1, _⟩ => rfl
  have er : ∀ j : Fin 64, ridx_main_v24 (ix2 r q) j = ix2 j q := fun j => funext fun a => by
    match a with | ⟨0, _⟩ => rfl | ⟨1, _⟩ => rfl
  have eb : idx_main_v25 (idx_main_v26 (ix2 r q)) = ix1 q := funext fun a => by
    match a with | ⟨0, _⟩ => rfl
  rw [val_main_v28_apply, val_main_v27_apply, val_main_v24_apply, val_main_v26_apply, val_main_v25_apply]
  simp only [el, er, eb, Ideal.addf_def, hidden_eq]
  rfl

end Cert.ReferenceIdeal.RefValue

end
-- ==== Proof.lean ====
/-
  The edge update of a message-passing layer, kernel against reference, on the extended reals.

  Both programs first gather, on the host and by the same operations, the rows of the node features x at the two ends
  of every edge.  The reference then joins the source rows, destination rows and edge rows side by side into a
  500000 × 384 array, multiplies it by the 384 × 64 weight W1, adds b1, clamps at zero, multiplies by W2, adds b2 and
  adds the edge features.  The kernel never joins: it cuts W1 into its three 128-row pieces and, block of 5000 edges by
  block, adds the three products  xs·W1[0:128] + xd·W1[128:256] + e·W1[256:384],  then does the same bias, clamp,
  second product, bias and residual.  A change of float format is the identity on extended reals and a matrix product
  is the plain sum of products, so the two results differ only in how the 384-term sum is grouped: the sum over 384
  consecutive indices is the sum of its three blocks of 128, by associativity and commutativity of addition alone —
  the finiteness of the inputs is not used.

  The modules: Spec (the update as one function, and the three-block law), RefIsSpec (the reference computes it),
  Payload and BlockUpdate (one entry of the body's block is the matching entry of the update), Blocks (what each
  window's block holds), Whole (the hundred blocks cover the array; the kernel's run).  The three frames are the
  generated ones, the reference's being its generated run with the result dropped; the idealization rewrote nothing,
  so its conjunct is trivial.
-/
import proofs.«104047_j60120952209607_1_alg».proof.Defs
import proofs.«104047_j60120952209607_1_alg».proof.Proof.Gen.Kernel
import proofs.«104047_j60120952209607_1_alg».proof.Proof.Gen.Kernel.Frame
import proofs.«104047_j60120952209607_1_alg».proof.Proof.Gen.KernelIdeal
import proofs.«104047_j60120952209607_1_alg».proof.Proof.Gen.KernelIdeal.Frame
import proofs.«104047_j60120952209607_1_alg».proof.Proof.Gen.KernelIdeal.Value
import proofs.«104047_j60120952209607_1_alg».proof.Proof.Gen.ReferenceIdeal
import proofs.«104047_j60120952209607_1_alg».proof.Proof.Gen.ReferenceIdeal.Run
import proofs.«104047_j60120952209607_1_alg».proof.Proof.Gen.ReferenceIdeal.Read
import proofs.«104047_j60120952209607_1_alg».proof.Proof.Gen.Pre_finite_inputs
import proofs.«104047_j60120952209607_1_alg».proof.Proof.Whole
import proofs.«104047_j60120952209607_1_alg».proof.Proof.RefIsSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's array ends at the edge update of the gathered rows (its run, read block by block), the reference's at
    the same update (its run, read entry by entry), and the two gathers are one term of the same arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v28_eq, Cert.ReferenceIdeal.RefValue.result_eq, a0, a1, a2, a3, a4, a5, a6]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
